-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S8192x512, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v10 : BitVec 32 := Scalar.muli arg1 c1024_i32
  v10
def k0_off1 (i : grid0.Coords) : Fin 2 → Nat :=
  let arg1 : BitVec 32 := BitVec.ofNat 32 (i 1).val
  let c1024_i32 : BitVec 32 := 1024#32
  let v10 : BitVec 32 := Scalar.muli arg1 c1024_i32
  let v11 : BitVec 32 := v10
  let v12 : Index := Scalar.indexCast v11
  let c0_2 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Piece.lean ====
/-
  What one grid point leaves in the output's staging buffer.

  The body makes a single store that covers the whole [1024, 1024] output block. Its value is the body's arithmetic
  applied to two things it loaded: the whole [1024, 512] block of `x` rows, and the 1024 rows of the resident
  normalised `y` array that start at row `1024 · j` (`j` the point's second grid coordinate), all 512 lanes.
  The load of the output block that precedes the store is not used by it.
-/
import proofs.«180953_j40200893890720_2_alg».proof.Proof.Gen.KernelIdeal.Frame
import Idealize.ShloMosaic.Lib.Pipeline.Value

set_option maxRecDepth 16384
noncomputable section

namespace Cert.KernelIdeal.Cosine

open Cert.KernelIdeal Cert.KernelIdeal.Gen Idealize.ShloMosaic Idealize.ShloMosaic.TcCoe Idealize.ShloMosaic.Tactic Idealize.SL.Sem

variable {F : FTy → Type} [FloatOps F]

theorem offsets_zero : (![0, 0] : Fin 2 → Nat) = fun _ => 0 := funext fun a => by fin_cases a <;> rfl

/-- The rows of the resident array the body loads at grid coordinates `i`: 1024 rows from row `1024 · i₁`, every lane. -/
abbrev yRows (i : grid0.Coords) : Rect S8192x512 :=
  Rect.unit (s := S8192x512) (k0_off1 i) S1024x512.size (k0_off1_inb i)

/-- The output block after the body, on any staging buffers holding `x0` (the `x` block) and `x1` (the resident
    array): the body's arithmetic of `x0` and of the rows `yRows i` of `x1`. -/
theorem block_eq (c : Dev nD) (i : grid0.Coords) (arg2 : Memref sig .tc .vmem S1024x512 .f32) (harg2 : arg2.IsWhole)
    (arg3 : Memref sig .tc .vmem S8192x512 .bf16) (harg3 : arg3.IsWhole) (arg4 : Memref sig .tc .vmem S1024x1024 .f32) (harg4 : arg4.IsWhole)
    (x0 : Vec F S1024x512 .f32) (x1 : Vec F S8192x512 .bf16) :
    out0_A_2 c i arg2 harg2 arg3 harg3 arg4 harg4 x0 x1 = k0_pay1 x0 (View.ld (Val := Elt F) x1 (yRows i)) := by
  unfold out0_A_2
  rw [View.read_writes_eq_canon _ _ _ (cover0_A_2 c i arg2 harg2 arg3 harg3 arg4 harg4 x0 x1)]
  unfold kernelRun0_A
  dsimp only
  rw [View.canon_unit_zero offsets_zero]
  simp only [View.readAt_eq_ld, harg2.read_unread, harg3.read_unread, View.ld_unit_zero (S := S1024x512) offsets_zero]

end Cert.KernelIdeal.Cosine

end
-- ==== Proof.CosineSpec.lean ====
/-
  Cosine similarity of the rows of two [8192, 512] arrays, on the extended reals.

  Row `p` of an array has the length `√(Σₖ x(p,k)²)`; the length is clamped from below by a small positive
  constant ε (one fixed binary32 word, the same wherever it appears), and every entry of the row is divided by the
  clamped length.  Entry `(p, q)` of the result is the inner product of normalised row `p` of the first array with
  normalised row `q` of the second.  Every operation is the extended reals' own (a quotient by `Ideal.div`, a root
  by `Ideal.sqrt`), so nothing here needs the entries to be finite.
-/
import Idealize.ShloMosaic.Lib.ValueIdx
import Idealize.ShloMosaic.PureOps.Ideal.Laws

noncomputable section

namespace Cert.Cosine

open Idealize.ShloMosaic Idealize.ShloMosaic.ValueIdx

/-- The lower clamp ε of a row's length: the value of its binary32 word. -/
abbrev floor : EReal := Ideal.ofBits .f32 0x322BCC77#32

/-- Row `p`'s length `√(Σₖ x(p,k)²)`, clamped from below by ε. -/
def rowNorm {n : ℕ} (x : (⟨2, ![n, 512]⟩ : Shape).Idx → EReal) (p : Fin n) : EReal :=
  max (Ideal.sqrt (∑ k : Fin 512, x (ix2 p k) * x (ix2 p k))) floor

/-- Entry `k` of row `p` divided by the row's clamped length. -/
def unitRow {n : ℕ} (x : (⟨2, ![n, 512]⟩ : Shape).Idx → EReal) (p : Fin n) (k : Fin 512) : EReal :=
  Ideal.div (x (ix2 p k)) (rowNorm x p)

/-- A normalised row depends on its array only through that row's entries. -/
theorem unitRow_congr {n n' : ℕ} (x : (⟨2, ![n, 512]⟩ : Shape).Idx → EReal) (x' : (⟨2, ![n', 512]⟩ : Shape).Idx → EReal)
    (p : Fin n) (p' : Fin n') (h : ∀ k : Fin 512, x (ix2 p k) = x' (ix2 p' k)) (k : Fin 512) :
    unitRow x p k = unitRow x' p' k := by
  unfold unitRow rowNorm
  rw [h k, Finset.sum_congr rfl fun j _ => by rw [h j]]

/-- The similarity matrix: entry `(p, q)` is `Σₖ` of normalised `x(p,k)` times normalised `y(q,k)`. -/
def cosine (x y : (⟨2, ![8192, 512]⟩ : Shape).Idx → EReal) : (⟨2, ![8192, 8192]⟩ : Shape).Idx → EReal :=
  fun i => ∑ k : Fin 512, unitRow x (i 0) k * unitRow y (i 1) k

theorem cosine_apply (x y : (⟨2, ![8192, 512]⟩ : Shape).Idx → EReal) (p q : Fin 8192) :
    cosine x y (ix2 p q) = ∑ k : Fin 512, unitRow x p k * unitRow y q k := rfl

end Cert.Cosine

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.Payload.lean ====
/-
  The body's arithmetic, entry by entry, on the extended reals.

  From a [1024, 512] block `v0` of `x` rows and 1024 rows `v13` of the already normalised `y` array, the body forms
  the sum of squares of every row of `v0`, its root, the larger of the root and ε, divides the row by it, and
  multiplies the normalised block with `v13`, contracting the lane axis of both into a zero accumulator.  Entry
  `(r, s)` of the product is therefore `Σₖ` of normalised `v0(r, k)` times `v13(s, k)`.  The narrowing to the
  half-width format before the product is the identity here.
-/
import proofs.«180953_j40200893890720_2_alg».proof.Proof.Gen.KernelIdeal.Skeleton
import proofs.«180953_j40200893890720_2_alg».proof.Proof.CosineSpec
import proofs.«180953_j40200893890720_2_alg».proof.Proof.LibKeepdims
import proofs.«180953_j40200893890720_2_alg».proof.Proof.LibRowOps
import Idealize.ShloMosaic.Lib.Pipeline.Value
import Idealize.ShloMosaic.Lib.ValueIdx
import Idealize.ShloMosaic.PureOps.Ideal.Laws

noncomputable section

namespace Cert.KernelIdeal.Cosine

open Cert.KernelIdeal Cert.KernelIdeal.Gen Idealize.ShloMosaic Idealize.ShloMosaic.ValueIdx

/-- The product's dimension record: both operands [1024, 512], contracted along their second axis. -/
abbrev dims : DotDims S1024x512 S1024x512 S1024x1024 := dot_S1024x512_S1024x512_S1024x1024_1_1_0_0_n_n

/-! The record's operand indices: the left operand is read at (row of the entry, contracted coordinate), the right
    operand at (column of the entry, contracted coordinate). -/

theorem lhs_row (i : S1024x1024.Idx) (q : dims.contr.Idx) : (dims.lhsIdx i q 0).val = (i 0).val := by
  unfold DotDims.lhsIdx
  rw [dif_neg (show ¬(0 : Fin S1024x512.rank) ∈ dims.lhsBatch by decide),
    dif_pos (show (0 : Fin S1024x512.rank) ∈ dims.lhsNonContracting by decide)]
  rfl

theorem lhs_lane (i : S1024x1024.Idx) (q : dims.contr.Idx) : (dims.lhsIdx i q 1).val = (q ⟨0, by decide⟩).val :=
  dims.lhsIdx_val_of_single rfl i q

theorem rhs_row (i : S1024x1024.Idx) (q : dims.contr.Idx) : (dims.rhsIdx i q 0).val = (i 1).val := by
  unfold DotDims.rhsIdx
  rw [dif_neg (show ¬(0 : Fin S1024x512.rank) ∈ dims.rhsBatch by decide),
    dif_pos (show (0 : Fin S1024x512.rank) ∈ dims.rhsNonContracting by decide)]
  rfl

theorem rhs_lane (i : S1024x1024.Idx) (q : dims.contr.Idx) : (dims.rhsIdx i q 1).val = (q ⟨0, by decide⟩).val :=
  dims.rhsIdx_val_of_single rfl i q

/-- The normalised block: entry `(r, k)` of the block divided by the clamped length of its row `r`. -/
theorem normalised_apply (v0 : Vec Ideal S1024x512 .f32) (r : Fin 1024) (k : Fin 512) :
    truncf (F := Ideal) .bf16
      (divf v0 (broadcastTo S1024x512
        (maximumf (sqrt (shapeCast S1024x1
            (multiReduction .add [1] S1024 (mulf v0 v0) 0x00000000#32 reduces_S1024x512_S1024 (.inl rfl) rfl)
            shapeCasts_S1024_S1024x1))
          (broadcast S1024x1 (Scalar.ofBits (F := Ideal) .f32 0x322BCC77#32)))
        broadcasts_S1024x1_S1024x512))
      bitsLt_bf16_f32 (ix2 r k)
    = Cert.Cosine.unitRow v0 r k := by
  show Ideal.div (v0 (ix2 r k)) (broadcastTo S1024x512 _ broadcasts_S1024x1_S1024x512 (ix2 r k)) = _
  rw [Keepdims.broadcastTo_a1_ab_apply]
  show Ideal.div (v0 (ix2 r k)) (max (Ideal.sqrt (shapeCast S1024x1 _ shapeCasts_S1024_S1024x1 (ix2 r (0 : Fin 1)))) _) = _
  rw [Keepdims.shapeCast_a_a1_apply, Keepdims.rowSum_apply]
  rfl

/-- Entry `(r, s)` of what the body stores. -/
theorem payload_apply (v0 : Vec Ideal S1024x512 .f32) (v13 : Vec Ideal S1024x512 .bf16) (r s : Fin 1024) :
    k0_pay1 (F := Ideal) v0 v13 (ix2 r s) = ∑ k : Fin 512, Cert.Cosine.unitRow v0 r k * v13 (ix2 s k) := by
  unfold k0_pay1
  refine (RowOps.matmulT_zero_apply dims none rfl rfl lhs_row lhs_lane rhs_row rhs_lane _ _ r s).trans ?_
  refine Finset.sum_congr rfl fun k _ => ?_
  refine congrArg₂ (· * ·) (normalised_apply v0 r k) ?_
  exact congrFun (shapeCast_self v13 shapeCasts_S1024x512_S1024x512) (ix2 s k)

end Cert.KernelIdeal.Cosine

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.HostNorm.lean ====
/-
  The host's row normalisation, entry by entry, on the extended reals.

  The host spells `x / max(‖x‖, ε)` over an `[n, 512]` array as: the square of every entry, the sum of each row from a
  zero scalar, that sum laid as a column, its root, the larger of the root and the column of ε, the column sent over
  the 512 lanes, and the quotient.  At entry `(p, k)` this is the entry divided by the clamped length of row `p`.
  The shape facts are hypotheses, so the same reading serves every program that spells the chain.
-/
import proofs.«180953_j40200893890720_2_alg».proof.Proof.CosineSpec
import proofs.«180953_j40200893890720_2_alg».proof.Proof.LibHostKeepdims

noncomputable section

namespace Cert.Cosine

open Idealize.ShloMosaic Idealize.ShloMosaic.ValueIdx

theorem hostNormalised_apply {n : ℕ} (x : FVec Ideal ⟨2, ![n, 512]⟩ .f32)
    (hsum' : (⟨2, ![n, 512]⟩ : Shape).ReducesTo [1] ⟨1, ![n]⟩) (hsum : (⟨2, ![n, 512]⟩ : Shape).Reduces [1] ⟨1, ![n]⟩)
    (hu : 0 < (⟨0, ![]⟩ : Shape).numel)
    (hcol : (⟨1, ![n]⟩ : Shape).BroadcastsInDim ⟨2, ![n, 1]⟩ (![0] : Fin 1 → Fin 2))
    (heps : (⟨0, ![]⟩ : Shape).BroadcastsInDim ⟨2, ![n, 1]⟩ (![] : Fin 0 → Fin 2))
    (hlanes : (⟨2, ![n, 1]⟩ : Shape).BroadcastsInDim ⟨2, ![n, 512]⟩ (![0, 1] : Fin 2 → Fin 2))
    (p : Fin n) (k : Fin 512) :
    Host.divf x (broadcastInDim ⟨2, ![n, 512]⟩ (![0, 1] : Fin 2 → Fin 2) hlanes
      (maximumf
        (Host.sqrt (broadcastInDim ⟨2, ![n, 1]⟩ (![0] : Fin 1 → Fin 2) hcol
          (Host.reduceAdd (mulf x x) (constant (F := Ideal) ⟨0, ![]⟩ .f32 0x00000000#32) hsum' hu)))
        (broadcastInDim ⟨2, ![n, 1]⟩ (![] : Fin 0 → Fin 2) heps (constant (F := Ideal) ⟨0, ![]⟩ .f32 0x322BCC77#32))))
      (ix2 p k)
    = unitRow x p k := by
  unfold unitRow rowNorm
  refine congrArg (Ideal.div (x (ix2 p k))) ?_
  refine (HostKeepdims.bcast_a1_ab_apply _ hlanes p k).trans ?_
  refine congrArg₂ max (congrArg Ideal.sqrt ?_) ?_
  · refine (HostKeepdims.bcast_a_a1_apply _ hcol p (0 : Fin 1)).trans ?_
    exact HostKeepdims.hostRowSum_apply _ hsum' hsum hu p
  · exact HostKeepdims.bcast_scalar_apply _ heps (ix2 p (0 : Fin 1))

end Cert.Cosine

end
-- ==== Proof.HostPrefix.lean ====
/-
  What the kernel finds in its second operand.

  Before the kernel is launched the host normalises `y`: every row is divided by its clamped length (and narrowed to
  the half-width format, the identity on the extended reals).  The array the kernel keeps resident therefore holds,
  at `(q, k)`, entry `k` of normalised row `q` of `y`.
-/
import proofs.«180953_j40200893890720_2_alg».proof.Proof.Gen.KernelIdeal.Frame
import proofs.«180953_j40200893890720_2_alg».proof.Proof.HostNorm
import Idealize.ShloMosaic.Lib.StableHlo.Run

set_option maxRecDepth 16384
noncomputable section

namespace Cert.KernelIdeal.Cosine

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The resident array as the region finds it: the host's operations applied to `y` as launched. -/
theorem resident_eq (c : Dev nD) :
    (V m c main_v5 : S8192x512.Idx → EReal)
      = truncf (F := Ideal) .bf16
          (Host.divf (m ((c : Thread nD τ).loc main_arg1))
            (broadcastInDim S8192x512 ![0, 1] bcast_S8192x1_S8192x512_0_1
              (maximumf
                (Host.sqrt (broadcastInDim S8192x1 ![0] bcast_S8192_S8192x1_0
                  (Host.reduceAdd (mulf (m ((c : Thread nD τ).loc main_arg1)) (m ((c : Thread nD τ).loc main_arg1)))
                    (constant (F := Ideal) S_ .f32 0x00000000#32) reducesTo_S8192x512_S8192_d1 h_S_)))
                (broadcastInDim S8192x1 ![] bcast_S_S8192x1 (constant (F := Ideal) S_ .f32 0x322BCC77#32)))))
          bitsLt_bf16_f32 := by
  dsimp only [Gen.V]
  simp only [Gen.hostOps0, Gen.hostOps0_1, List.flatten_cons, List.flatten_nil, List.append_nil, List.cons_append,
    List.nil_append]
  after_results
  rfl

/-- Entry `(q, k)` of the resident array: entry `k` of normalised row `q` of `y`. -/
theorem resident_apply (c : Dev nD) (q : Fin 8192) (k : Fin 512) :
    V m c main_v5 (ix2 q k) = Cert.Cosine.unitRow (m ((c : Thread nD τ).loc main_arg1)) q k :=
  (congrFun (resident_eq m c) (ix2 q k)).trans
    (Cert.Cosine.hostNormalised_apply (n := 8192) (m ((c : Thread nD τ).loc main_arg1)) reducesTo_S8192x512_S8192_d1
      (by decide) h_S_ bcast_S8192_S8192x1_0 bcast_S_S8192x1 bcast_S8192x1_S8192x512_0_1 q k)

end Cert.KernelIdeal.Cosine

end
-- ==== Proof.Blocks.lean ====
/-
  From the blocks the grid points write to the whole result array.

  The grid has 8 × 8 points.  Point `(i, j)` reads the x rows `1024·i … 1024·i + 1023` as its first block and, out of
  the resident normalised `y` array, the rows `1024·j … 1024·j + 1023`; it writes block `(i, j)` of the
  [8192, 8192] result.  Entry `(r, s)` of what it writes is `Σₖ` of normalised `x(1024·i + r, k)` times normalised
  `y(1024·j + s, k)`: entry `(1024·i + r, 1024·j + s)` of the similarity matrix.  The 64 blocks tile the result, so
  after the run the result array is the similarity matrix of the two arguments.
-/
import proofs.«180953_j40200893890720_2_alg».proof.Proof.Gen.KernelIdeal.Value
import proofs.«180953_j40200893890720_2_alg».proof.Proof.Piece
import proofs.«180953_j40200893890720_2_alg».proof.Proof.Payload
import proofs.«180953_j40200893890720_2_alg».proof.Proof.HostPrefix

set_option maxRecDepth 16384
noncomputable section

namespace Cert.KernelIdeal.Cosine

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The printed index maps, decided over the 64 points: the x window's block row is the output's block row, its block
    column 0; the resident window never moves; the rows loaded from the resident array start at 1024 times the output's
    block column; both output block indices are at most 7. -/
theorem point_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ k0_off1 (grid0.coords t) (0 : Fin 2) = win0_2.index t (1 : Fin 2) * 1024
    ∧ k0_off1 (grid0.coords t) (1 : Fin 2) = 0
    ∧ win0_2.index t (0 : Fin 2) ≤ 7
    ∧ win0_2.index t (1 : Fin 2) ≤ 7 :=
  (by decide +kernel : ∀ t : Fin grid0.N, _)

/-- Every one of the 8 × 8 output blocks is some point's. -/
theorem point_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Entry `(r, k)` of the x block at point `t`: x as launched, at row (block row)·1024 + r. -/
theorem xblock_apply (c : Dev nD) (t : Fin cfg0.N) (r : Fin 1024) (k : Fin 512)
    (hP : win0_2.index t (0 : Fin 2) * 1024 + r.val < 8192) :
    iblk m c 0 t (ix2 r k)
      = m ((c : Thread nD τ).loc main_arg0) (ix2 (⟨win0_2.index t (0 : Fin 2) * 1024 + r.val, hP⟩ : Fin 8192) k) := by
  show V m c main_arg0 (((cfg0.win 0).blk t).view.emb (ix2 r k)) = _
  rw [V_main_arg0]
  refine congrArg _ (funext fun a => Fin.ext ?_)
  obtain ⟨e0, e1, -⟩ := point_facts t
  match a with
  | ⟨0, _⟩ =>
    show win0_0.index t (0 : Fin 2) * 1024 + 1 * r.val = win0_2.index t (0 : Fin 2) * 1024 + r.val
    omega
  | ⟨1, _⟩ =>
    show win0_0.index t (1 : Fin 2) * 512 + 1 * k.val = k.val
    omega

/-- Entry `(s, k)` of the rows the body loads from the resident array at point `t`: the resident array at row
    (block column)·1024 + s. -/
theorem yrows_apply (c : Dev nD) (t : Fin cfg0.N) (s : Fin 1024) (k : Fin 512)
    (hQ : win0_2.index t (1 : Fin 2) * 1024 + s.val < 8192) :
    View.ld (Val := Elt Ideal) (iblk m c 1 t) (yRows (grid0.coords t)) (ix2 s k)
      = V m c main_v5 (ix2 (⟨win0_2.index t (1 : Fin 2) * 1024 + s.val, hQ⟩ : Fin 8192) k) := by
  show V m c main_v5 (((cfg0.win 1).blk t).view.emb ((yRows (grid0.coords t)).idx (ix2 s k))) = _
  refine congrArg _ (funext fun a => Fin.ext ?_)
  obtain ⟨-, -, e2, e3, e4, e5, -, -⟩ := point_facts t
  match a with
  | ⟨0, _⟩ =>
    show win0_1.index t (0 : Fin 2) * 8192 + 1 * (k0_off1 (grid0.coords t) (0 : Fin 2) + 1 * s.val)
      = win0_2.index t (1 : Fin 2) * 1024 + s.val
    omega
  | ⟨1, _⟩ =>
    show win0_1.index t (1 : Fin 2) * 512 + 1 * (k0_off1 (grid0.coords t) (1 : Fin 2) + 1 * k.val) = k.val
    omega

/-- What point `t` writes back is block `t` of the similarity matrix of the arguments as launched. -/
theorem flushed_eq (c : Dev nD) (t : Fin cfg0.N) :
    (dats m 0 c).flushed 2 t
      = ((cfg0.win 2).blk t).view.read (Elt Ideal)
          (Cert.Cosine.cosine (m ((c : Thread nD τ).loc main_arg0)) (m ((c : Thread nD τ).loc main_arg1))) := by
  rw [Value.flushed2_A,
    block_eq c (grid0.coords t) (ms0_0 t) (hs0_0 t) (ms0_1 t) (hs0_1 t) (ms0_2 t) (hs0_2 t) (iblk m c 0 t) (iblk m c 1 t)]
  funext (y : S1024x1024.Idx)
  obtain ⟨r, s, rfl⟩ : ∃ (r s : Fin 1024), y = ix2 r s := ⟨y 0, y 1, eq_ix2 y⟩
  show k0_pay1 (F := Ideal) (iblk m c 0 t) (View.ld (Val := Elt Ideal) (iblk m c 1 t) (yRows (grid0.coords t))) (ix2 r s)
    = Cert.Cosine.cosine (m ((c : Thread nD τ).loc main_arg0)) (m ((c : Thread nD τ).loc main_arg1))
        (((cfg0.win 2).blk t).view.emb (ix2 r s))
  obtain ⟨-, -, -, -, -, -, b0, b1⟩ := point_facts t
  have hP : win0_2.index t (0 : Fin 2) * 1024 + r.val < 8192 := by have := r.isLt; omega
  have hQ : win0_2.index t (1 : Fin 2) * 1024 + s.val < 8192 := by have := s.isLt; omega
  have hemb : ((cfg0.win 2).blk t).view.emb (ix2 r s)
      = ix2 (⟨win0_2.index t (0 : Fin 2) * 1024 + r.val, hP⟩ : Fin 8192)
          (⟨win0_2.index t (1 : Fin 2) * 1024 + s.val, hQ⟩ : Fin 8192) := by
    funext a; apply Fin.ext
    match a with
    | ⟨0, _⟩ =>
      show win0_2.index t (0 : Fin 2) * 1024 + 1 * r.val = win0_2.index t (0 : Fin 2) * 1024 + r.val
      omega
    | ⟨1, _⟩ =>
      show win0_2.index t (1 : Fin 2) * 1024 + 1 * s.val = win0_2.index t (1 : Fin 2) * 1024 + s.val
      omega
  rw [hemb, Cert.Cosine.cosine_apply]
  refine (payload_apply (iblk m c 0 t) (View.ld (Val := Elt Ideal) (iblk m c 1 t) (yRows (grid0.coords t))) r s).trans ?_
  refine Finset.sum_congr rfl fun k _ => ?_
  refine congrArg₂ (· * ·) ?_ ?_
  · exact Cert.Cosine.unitRow_congr (iblk m c 0 t) (m ((c : Thread nD τ).loc main_arg0)) r ⟨_, hP⟩
      (fun k' => xblock_apply m c t r k' hP) k
  · exact (yrows_apply m c t s k hQ).trans (resident_apply m c ⟨_, hQ⟩ k)

/-- An index of the result is in point `t`'s block iff each coordinate is in the block's range on its axis. -/
theorem mem_block (t : Fin cfg0.N) (i : S8192x8192.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v6).slice (win0_2.rect t)).set ↔ _
  rw [View.set_slice_whole, Rect.mem_set_unit]
  exact Iff.rfl

/-- Every index of the result lies in some point's block: the point whose block indices are the coordinates' quotients
    by 1024. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := point_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the similarity matrix of the arguments as launched. -/
theorem final (c : Dev nD) :
    (dats m 0 c).arrAt 2 cfg0.N
      = Cert.Cosine.cosine (m ((c : Thread nD τ).loc main_arg0)) (m ((c : Thread nD τ).loc main_arg1)) :=
  (dats m 0 c).arrAt_eq_of_cover 2 _ (fun t _ => flushed_eq m c t) covered

/-- The kernel's run: every weakly fair execution terminates with the result at the similarity matrix of the
    arguments, the arguments unchanged. -/
theorem run : θ_run defs (onTc (τ := τ) (main (F := Ideal))) ⟨m, fun _ => 0, ρ⟩ fun r => ∀ c : Dev nD,
      r.2.mem ((c : Thread nD τ).loc main_v6)
        = Cert.Cosine.cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Cosine

end
-- ==== Proof.RefCosine.lean ====
/-
  The reference computes the similarity matrix.

  The reference normalises the rows of both arrays on the host and contracts the lane axis of the two normalised
  arrays in one product: entry `(p, q)` is `Σₖ` of normalised `x(p, k)` times normalised `y(q, k)`.
-/
import proofs.«180953_j40200893890720_2_alg».proof.Proof.Gen.ReferenceIdeal.Read
import proofs.«180953_j40200893890720_2_alg».proof.Proof.HostNorm

noncomputable section

namespace Cert.ReferenceIdeal.Cosine

open Cert.ReferenceIdeal Cert.ReferenceIdeal.Gen Idealize.ShloMosaic Idealize.ShloMosaic.ValueIdx

/-- A normalised array of the reference (either operand of its product) at `(p, k)`. -/
theorem normalised_apply (x : (⟨S8192x512, .f32⟩ : BufTy).Contents (Elt Ideal)) (p : Fin 8192) (k : Fin 512) :
    Read.val_main_v4 (F := Ideal) x (ix2 p k) = Cert.Cosine.unitRow x p k :=
  Cert.Cosine.hostNormalised_apply (n := 8192) x reducesTo_S8192x512_S8192_d1 (by decide) h_S_
    bcast_S8192_S8192x1_0 bcast_S_S8192x1 bcast_S8192x1_S8192x512_0_1 p k

theorem normalised_apply' (x : (⟨S8192x512, .f32⟩ : BufTy).Contents (Elt Ideal)) (q : Fin 8192) (k : Fin 512) :
    Read.val_main_v9 (F := Ideal) x (ix2 q k) = Cert.Cosine.unitRow x q k :=
  Cert.Cosine.hostNormalised_apply (n := 8192) x reducesTo_S8192x512_S8192_d1 (by decide) h_S_
    bcast_S8192_S8192x1_0 bcast_S_S8192x1 bcast_S8192x1_S8192x512_0_1 q k

/-- The reference's result is the similarity matrix of its two arguments. -/
theorem result_eq (x0 x1 : (⟨S8192x512, .f32⟩ : BufTy).Contents (Elt Ideal)) :
    Read.val_main_v10 (F := Ideal) x0 x1 = Cert.Cosine.cosine x0 x1 := by
  funext i
  obtain ⟨p, q, rfl⟩ : ∃ (p q : Fin 8192), i = ix2 p q := ⟨i 0, i 1, eq_ix2 i⟩
  rw [Read.val_main_v10_apply, Cert.Cosine.cosine_apply]
  refine Finset.sum_congr rfl fun k _ => ?_
  have el : Read.lidx_main_v10 (ix2 p q) k = ix2 p k := funext fun a => Fin.ext (by
    match a with
    | ⟨0, _⟩ => rfl
    | ⟨1, _⟩ => rfl)
  have er : Read.ridx_main_v10 (ix2 p q) k = ix2 q k := funext fun a => Fin.ext (by
    match a with
    | ⟨0, _⟩ => rfl
    | ⟨1, _⟩ => rfl)
  rw [el, er, normalised_apply, normalised_apply']

end Cert.ReferenceIdeal.Cosine

end
-- ==== Proof.lean ====
/-
  The kernel computes the cosine similarity of every row of `x` with every row of `y` (both [8192, 512]); so does the
  reference.

  Both programs divide each row by `max(√(Σₖ row(k)²), ε)`, with the same binary32 word for ε, and contract the lane
  axis of the two normalised arrays: entry `(p, q)` of the [8192, 8192] result is `Σₖ` of normalised `x(p, k)` times
  normalised `y(q, k)`.  The reference does all of it on the host in one product.  The kernel normalises `y` on the
  host, keeps the normalised array resident, and on an 8 × 8 grid normalises a 1024-row block of `x` and multiplies it
  with 1024 rows of the resident array, writing one [1024, 1024] block of the result per point.  On the extended reals
  the two are the same function of the arguments, operation for operation (a narrowing of format is the identity, a
  matrix product into a zero accumulator is the host's product, a lane sum is the host's sum), so no law of
  arithmetic and no finiteness of the inputs is used: the precondition is never opened.

  The idealized kernel is the kernel's own text read on the extended reals (no rewrite was applied), so that claim is
  `True`.  The three frames are the generated frame runs; the reference's is its generated run with the result dropped.
-/
import proofs.«180953_j40200893890720_2_alg».proof.Defs
import proofs.«180953_j40200893890720_2_alg».proof.Proof.Gen.Kernel
import proofs.«180953_j40200893890720_2_alg».proof.Proof.Gen.Kernel.Skeleton
import proofs.«180953_j40200893890720_2_alg».proof.Proof.Gen.Kernel.Launch
import proofs.«180953_j40200893890720_2_alg».proof.Proof.Gen.Kernel.Points
import proofs.«180953_j40200893890720_2_alg».proof.Proof.Gen.Kernel.Frame
import proofs.«180953_j40200893890720_2_alg».proof.Proof.Gen.KernelIdeal
import proofs.«180953_j40200893890720_2_alg».proof.Proof.Gen.KernelIdeal.Skeleton
import proofs.«180953_j40200893890720_2_alg».proof.Proof.Gen.KernelIdeal.Launch
import proofs.«180953_j40200893890720_2_alg».proof.Proof.Gen.KernelIdeal.Points
import proofs.«180953_j40200893890720_2_alg».proof.Proof.Gen.KernelIdeal.Frame
import proofs.«180953_j40200893890720_2_alg».proof.Proof.Gen.ReferenceIdeal
import proofs.«180953_j40200893890720_2_alg».proof.Proof.Gen.Pre_finite_inputs
import proofs.«180953_j40200893890720_2_alg».proof.Proof.Gen.KernelIdeal.Value
import proofs.«180953_j40200893890720_2_alg».proof.Proof.Gen.ReferenceIdeal.Run
import proofs.«180953_j40200893890720_2_alg».proof.Proof.Gen.ReferenceIdeal.Read
import proofs.«180953_j40200893890720_2_alg».proof.Proof.Blocks
import proofs.«180953_j40200893890720_2_alg».proof.Proof.RefCosine
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the similarity matrix of the arguments: the kernel's result array block by block, the
    reference's as its one product; the arguments agree, so the results are equal. -/
theorem algebraic : Cert.algebraic_KernelIdeal_ReferenceIdeal := by
  intro m ρ m' ρ' _ hagree
  refine ⟨fun c => Cert.Cosine.cosine (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.Cosine.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
